-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x1024 : Shape := ⟨2, ![50000, 1024]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_

variable [Facts]

def fn {F : FTy → Type} [FloatOps F] (main_arg0 : FVec F S50000x64 .f32) (main_arg1 : FVec F S50000x1024 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  main_v8
-- ==== Kernel.lean ====
abbrev S50000x64 : Shape := ⟨2, ![50000, 64]⟩
abbrev S50000x1024 : Shape := ⟨2, ![50000, 1024]⟩
abbrev S1x64 : Shape := ⟨2, ![1, 64]⟩
abbrev S2000x64 : Shape := ⟨2, ![2000, 64]⟩
abbrev S2000x1024 : Shape := ⟨2, ![2000, 1024]⟩
abbrev S256x1024 : Shape := ⟨2, ![256, 1024]⟩
abbrev S2000x128 : Shape := ⟨2, ![2000, 128]⟩
abbrev S2000x256 : Shape := ⟨2, ![2000, 256]⟩
abbrev S1024x256 : Shape := ⟨2, ![1024, 256]⟩
abbrev S1024x64 : Shape := ⟨2, ![1024, 64]⟩
abbrev S1024x1 : Shape := ⟨2, ![1024, 1]⟩
abbrev S64 : Shape := ⟨1, ![64]⟩

abbrev nBuf : Space → Nat
  | .hbm => 4
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S50000x1024, .f32⟩
  | .hbm, ⟨2, _⟩ => ⟨S1x64, .f32⟩
  | .hbm, ⟨3, _⟩ => ⟨S64, .f32⟩
  | .local _ .vmem, ⟨0, _⟩ => ⟨S2000x64, .f32⟩
  | .local _ .vmem, ⟨1, _⟩ => ⟨S2000x64, .f32⟩
  | .local _ .vmem, ⟨2, _⟩ => ⟨S2000x1024, .f32⟩
  | .local _ .vmem, ⟨3, _⟩ => ⟨S2000x1024, .f32⟩
  | .local _ .vmem, ⟨4, _⟩ => ⟨S1x64, .f32⟩
  | .local _ .vmem, ⟨5, _⟩ => ⟨S256x1024, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  iota_S2000x64_d1_w32 : S2000x64.Iotas .tc 32 [1]
  natLt_1_32 : 1 < 32
  concatenates_S2000x64_S2000x64_S2000x128_d1 : Shape.Concatenates [S2000x64, S2000x64] S2000x128 1
  concatenates_S2000x128_S2000x128_S2000x256_d1 : Shape.Concatenates [S2000x128, S2000x128] S2000x256 1
  inb_S2000x1024_S2000x1024_0_0 : ∀ a, (![0, 0] : Fin 2 → Nat) a + S2000x1024.size a ≤ S2000x1024.size a
  h_S2000x1024 : 0 < S2000x1024.numel
  transposes_S256x1024_p1_0_S1024x256 : S256x1024.Transposes [1, 0] S1024x256
  slices_S1024x256_o0_0_S1024x64 : S1024x256.Slices ![0, 0] S1024x64
  slices_S1024x256_o0_128_S1024x64 : S1024x256.Slices ![0, 128] S1024x64
  slices_S1024x256_o0_192_S1024x1 : S1024x256.Slices ![0, 192] S1024x1
  broadcasts_S1024x1_S1024x64 : S1024x1.Broadcasts S1024x64
  reduces_S1024x64_S64 : S1024x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S64 : S1x64.ShapeCasts S64
  dot_S2000x256_S2000x1024_S256x1024_0_0_1_1_n_n_wf : DotDims.WF S2000x256 S2000x1024 S256x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S50000x1024.size a
  hwx0_1 : ∀ i : grid0.Coords, EltTy.bits .f32 = 32 ∨ (Rect.block (s := S50000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)

variable [Facts₀]

def dot_S2000x256_S2000x1024_S256x1024_0_0_1_1_n_n : DotDims S2000x256 S2000x1024 S256x1024 where
  lhsContracting := [0]
  rhsContracting := [0]
  lhsNonContracting := [1]
  rhsNonContracting := [1]
  lhsBatch := []
  rhsBatch := []
  wf := dot_S2000x256_S2000x1024_S256x1024_0_0_1_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S50000x1024 : Shape := ⟨2, ![50000, 1024]⟩
abbrev S_ : Shape := ⟨0, ![]⟩
abbrev S1024x50000 : Shape := ⟨2, ![1024, 50000]⟩
abbrev S1024x64 : Shape := ⟨2, ![1024, 64]⟩
abbrev S1024 : Shape := ⟨1, ![1024]⟩
abbrev S1024x1 : Shape := ⟨2, ![1024, 1]⟩
abbrev S64 : Shape := ⟨1, ![64]⟩

abbrev nBuf : Space → Nat
  | .hbm => 15
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x1024, .f32⟩
  | .hbm, ⟨2, _⟩ => ⟨S_, .f32⟩
  | .hbm, ⟨3, _⟩ => ⟨S50000x1024, .f32⟩
  | .hbm, ⟨4, _⟩ => ⟨S50000x1024, .i1⟩
  | .hbm, ⟨5, _⟩ => ⟨S50000x1024, .f32⟩
  | .hbm, ⟨6, _⟩ => ⟨S1024x50000, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S50000x1024 : S_.BroadcastsInDim S50000x1024 (![] : Fin 0 → Fin S50000x1024.rank)
  transposes_S50000x1024_S1024x50000_1_0 : S50000x1024.Transposes [1, 0] S1024x50000
  reducesTo_S50000x1024_S1024_d0 : S50000x1024.ReducesTo [0] S1024
  h_S_ : 0 < S_.numel
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  reducesTo_S1024x64_S64_d0 : S1024x64.ReducesTo [0] S64
  dot_S1024x50000_S50000x64_S1024x64_1_0_0_1_n_n_wf : DotDims.WF S1024x50000 S50000x64 S1024x64 [1] [0] [0] [1] [] []

variable [Facts₀]

def dot_S1024x50000_S50000x64_S1024x64_1_0_0_1_n_n : DotDims S1024x50000 S50000x64 S1024x64 where
  lhsContracting := [1]
  rhsContracting := [0]
  lhsNonContracting := [0]
  rhsNonContracting := [1]
  lhsBatch := []
  rhsBatch := []
  wf := dot_S1024x50000_S50000x64_S1024x64_1_0_0_1_n_n_wf

class Facts : Prop extends Facts₀ where

variable [Facts]
-- ==== Proof.Spec.lean ====
/-
  What both programs compute, as one function of the two argument arrays.

  The arguments are the node embeddings `X` (50000 nodes, 64 features) and the incidence weights `H` (50000 nodes,
  1024 hyperedges). Node `n` belongs to hyperedge `e` when `H n e > 0`; its membership is the indicator `ind (H n e)`,
  one or zero. For each hyperedge the features of its members are averaged — the sum of `ind (H n e) * X n j` over the
  nodes divided by the number of members, the sum of `ind (H n e)` — and the result is, feature by feature, the largest
  of the 1024 averages, taken from minus infinity upwards. Every operation is the exact one on the extended reals; the
  quotient is the extended reals' `Ideal.div`, whose value at an empty hyperedge (a zero count) is whatever that
  function gives: both programs apply the same function to the same two numbers there.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The node embeddings' index type, the incidence weights', the result's. -/
abbrev SX : Shape := ⟨2, ![50000, 64]⟩
abbrev SH : Shape := ⟨2, ![50000, 1024]⟩
abbrev SO : Shape := ⟨1, ![64]⟩

/-- Membership as a number: one when `0 < h`, zero otherwise (the comparison's bit, read as a natural number). -/
def ind (h : EReal) : EReal := (((Ideal.cmp .ogt h (Ideal.ofBits .f32 0x00000000#32)).toNat : ℝ) : EReal)

/-- The sum of feature `j` over the members of hyperedge `e`. -/
def edgeSum (X : SX.Idx → EReal) (H : SH.Idx → EReal) (e : Fin 1024) (j : Fin 64) : EReal :=
  ∑ n : Fin 50000, ind (H (ix2 n e)) * X (ix2 n j)

/-- The number of members of hyperedge `e`. -/
def edgeCount (H : SH.Idx → EReal) (e : Fin 1024) : EReal :=
  ∑ n : Fin 50000, ind (H (ix2 n e))

/-- The average of feature `j` over the members of hyperedge `e`. -/
def edgeMean (X : SX.Idx → EReal) (H : SH.Idx → EReal) (e : Fin 1024) (j : Fin 64) : EReal :=
  Ideal.div (edgeSum X H e j) (edgeCount H e)

/-- The result: for each feature, the largest average over the 1024 hyperedges, from minus infinity upwards. -/
def pooled (X : SX.Idx → EReal) (H : SH.Idx → EReal) : SO.Idx → EReal := fun j =>
  (Finset.univ : Finset (Fin 1024)).fold max (Ideal.ofBits .f32 0xFF800000#32) (fun e => edgeMean X H e (j 0))

end Cert.Spec

end
-- ==== Proof.RefValue.lean ====
/-
  The reference's result, stage by stage, is the specification's `pooled`.
-/
import proofs.«161942_g77077483094351_cont_sun_m_92_21_alg».proof.Proof.Gen.ReferenceIdeal.Read
import proofs.«161942_g77077483094351_cont_sun_m_92_21_alg».proof.Proof.Spec
import Idealize.ShloMosaic.PureOps.Reduce
import Idealize.ShloMosaic.PureOps.Ideal.Laws

noncomputable section

open Idealize.ShloMosaic Idealize.ShloMosaic.TcCoe Idealize.ShloMosaic.ValueIdx Idealize.SL.Sem

namespace Cert.RefValue

open Cert.ReferenceIdeal Cert.ReferenceIdeal.Gen Cert.ReferenceIdeal.Read

/-- The converted comparison bit at an index is the membership indicator of the weight there. -/
theorem v2_at (H : (⟨S50000x1024, .f32⟩ : BufTy).Contents (Elt Ideal)) (i : S50000x1024.Idx) :
    val_main_v2 (F := Ideal) H i = Cert.Spec.ind (H i) := by
  rw [val_main_v2_apply, val_main_v1_apply, val_main_v0_apply, val_main_cst_apply]
  rfl

/-- The contraction at (e, j) is the sum of feature `j` over the members of hyperedge `e`. -/
theorem v4_at (X : (⟨S50000x64, .f32⟩ : BufTy).Contents (Elt Ideal)) (H : (⟨S50000x1024, .f32⟩ : BufTy).Contents (Elt Ideal))
    (e : Fin 1024) (j : Fin 64) :
    val_main_v4 (F := Ideal) X H (ix2 e j) = Cert.Spec.edgeSum X H e j := by
  rw [val_main_v4_apply]
  unfold Cert.Spec.edgeSum
  refine Finset.sum_congr rfl fun n _ => ?_
  rw [val_main_v3_apply, v2_at]
  have h1 : idx_main_v3 (lidx_main_v4 (ix2 e j) n) = ix2 n e :=
    funext fun a => Fin.ext (by match a with | ⟨0, _⟩ => rfl | ⟨1, _⟩ => rfl)
  have h2 : ridx_main_v4 (ix2 e j) n = ix2 n j :=
    funext fun a => Fin.ext (by match a with | ⟨0, _⟩ => rfl | ⟨1, _⟩ => rfl)
  rw [h1, h2]

/-- The broadcast count at (e, j) is the number of members of hyperedge `e`. -/
theorem v7_at (H : (⟨S50000x1024, .f32⟩ : BufTy).Contents (Elt Ideal)) (e : Fin 1024) (j : Fin 64) :
    val_main_v7 (F := Ideal) H (ix2 e j) = Cert.Spec.edgeCount H e := by
  rw [val_main_v7_apply, val_main_v6_apply, val_main_v5_apply, val_main_cst_0_apply, Ideal.ofBits_def,
    Ideal.ofBits_zero_f32, zero_add]
  unfold Cert.Spec.edgeCount
  refine Finset.sum_congr rfl fun n _ => ?_
  rw [v2_at]
  have h1 : idx_main_v5 (idx_main_v6 (idx_main_v7 (ix2 e j))) n = ix2 n e :=
    funext fun a => Fin.ext (by match a with | ⟨0, _⟩ => rfl | ⟨1, _⟩ => rfl)
  rw [h1]

/-- The quotient at (e, j) is the average of feature `j` over the members of hyperedge `e`. -/
theorem v8_at (X : (⟨S50000x64, .f32⟩ : BufTy).Contents (Elt Ideal)) (H : (⟨S50000x1024, .f32⟩ : BufTy).Contents (Elt Ideal))
    (e : Fin 1024) (j : Fin 64) :
    val_main_v8 (F := Ideal) X H (ix2 e j) = Cert.Spec.edgeMean X H e j := by
  rw [val_main_v8_apply, v4_at, v7_at, Ideal.hostDivf_def]
  rfl

/-- The reference's result is the specification's: its last stage is the maximum, from minus infinity upwards, over the
    1024 hyperedges of the quotient array, which at (e, j) is hyperedge `e`'s average of feature `j`. -/
theorem ref_eq (X : (⟨S50000x64, .f32⟩ : BufTy).Contents (Elt Ideal)) (H : (⟨S50000x1024, .f32⟩ : BufTy).Contents (Elt Ideal)) :
    val_main_v9 (F := Ideal) X H = Cert.Spec.pooled X H := by
  funext j
  have hR : S1024x64.Reduces [0] S64 := by decide
  unfold val_main_v9
  refine (Host.reduce_eq_fold_single (FloatOps.maximumf (F := Ideal) (φ := .f32)) (val_main_v8 (F := Ideal) X H)
    (val_main_cst_1 (F := Ideal)) reducesTo_S1024x64_S64_d0 hR h_S_ j).trans ?_
  show (Finset.univ : Finset (Fin 1024)).fold max (Ideal.ofBits .f32 0xFF800000#32)
      (val_main_v8 (F := Ideal) X H ∘ hR.lift j) = _
  unfold Cert.Spec.pooled
  refine Finset.fold_congr fun (e : Fin 1024) _ => ?_
  have hl : hR.lift j e = (ix2 (n0 := 1024) (n1 := 64) e (j 0) : S1024x64.Idx) :=
    funext fun a => Fin.ext (by match a with | ⟨0, _⟩ => rfl | ⟨1, _⟩ => rfl)
  exact (congrArg (val_main_v8 (F := Ideal) X H) hl).trans (v8_at X H e (j 0))

end Cert.RefValue

end
-- ==== Proof.Finite.lean ====
/-
  Under the precondition every node embedding is a real number.
-/
import proofs.«161942_g77077483094351_cont_sun_m_92_21_alg».proof.Defs
import proofs.«161942_g77077483094351_cont_sun_m_92_21_alg».proof.Proof.Gen.Pre_finite_inputs
import Idealize.ShloMosaic.Lib.ReduceAll
import Idealize.ShloMosaic.Lib.ValueIdx

noncomputable section

open Idealize.ShloMosaic Idealize.ShloMosaic.TcCoe Idealize.ShloMosaic.ValueIdx Idealize.SL.Sem

namespace Cert.Finite

/-- The rank-0 shape has one index. -/
instance subsingleton_S_ : Subsingleton Cert.Pre_finite_inputs.S_.Idx := ⟨fun a b => funext fun d => d.elim0⟩

/-- The f32 pattern `0x7F800000` denotes plus infinity. -/
theorem ofBits_inf_f32 : Ideal.ofBits .f32 0x7F800000#32 = (⊤ : EReal) := by
  simp [Ideal.ofBits, Ideal.ieee]

/-- An extended real whose absolute value `max x (-x)` is below plus infinity is a real number. -/
theorem real_of_abs_lt_top (x : EReal) (h : max x (-x) < (⊤ : EReal)) : ∃ r : ℝ, x = ((r : ℝ) : EReal) := by
  induction x using EReal.rec with
  | bot => exact absurd h (by simp)
  | coe r => exact ⟨r, rfl⟩
  | top => exact absurd h (by simp)

/-- An extended real whose absolute value compares below the pattern of plus infinity is a real number. -/
theorem real_of_cmp_abs (x : EReal)
    (h : Ideal.cmp .olt (max x (-x)) (Ideal.ofBits .f32 0x7F800000#32) = 1#1) : ∃ r : ℝ, x = ((r : ℝ) : EReal) := by
  rw [ofBits_inf_f32] at h
  refine real_of_abs_lt_top x ?_
  by_contra hn
  unfold Ideal.cmp at h
  dsimp only at h
  rw [decide_eq_false hn] at h
  exact absurd h (by decide)

/-- Under the precondition every node embedding is a real number: the precondition's first conjunct says every
    embedding's absolute value is below plus infinity. -/
theorem x_real [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S50000x64.Idx) :
    ∃ r : ℝ, m ((c.tc : Thread Cert.KernelIdeal.nD Cert.KernelIdeal.τ).loc Cert.KernelIdeal.main_arg0) i = ((r : ℝ) : EReal) := by
  have h0 := congrFun (hpre c) ValueIdx.ix0
  unfold Cert.Pre_finite_inputs.fn at h0
  dsimp only at h0
  have h1 := (IntOp.andi_eq_one.1 h0).1
  have h2 := Host.reduce_andi_all _ _ _ _ _ h1 i
  exact real_of_cmp_abs _ h2

end Cert.Finite

end
-- ==== Proof.Pieces.lean ====
/-
  What each control case of the body leaves in the carried accumulator and in the output block, as the body's
  arithmetic applied to the blocks it loaded.
-/
import proofs.«161942_g77077483094351_cont_sun_m_92_21_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.ShloMosaic.ValueIdx Idealize.SL.Sem

namespace Cert.Pieces

open Cert.KernelIdeal Cert.KernelIdeal.Gen

variable {F : FTy → Type} [FloatOps F]

theorem hz : (![0, 0] : Fin 2 → Nat) = fun _ => 0 := funext fun a => by fin_cases a <;> rfl

/-- A middle point: the accumulator ends at the tile's update of what the point before left. -/
theorem acc_B (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S256x1024 .f32) (h4 : a4.IsWhole) (hc0 : ¬cond0_0 i) (hc1 : ¬cond0_1 i)
    (x0 : Vec F S2000x64 .f32) (x1 : Vec F S2000x1024 .f32) (xs0 : Vec F S256x1024 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S2000x64) hz,
    View.ld_unit_zero (S := S2000x1024) hz, View.ld_unit_zero (S := S256x1024) hz]

/-- The first point: the accumulator is reset, then updated by the first tile. -/
theorem acc_A (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S256x1024 .f32) (h4 : a4.IsWhole) (hc0 : cond0_0 i) (hc1 : ¬cond0_1 i)
    (x0 : Vec F S2000x64 .f32) (x1 : Vec F S2000x1024 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S256x1024) hz, View.readCov_unit_zero (S := S256x1024) _ hz]
  simp only [View.readAt_eq_ld, h1.read_unread, h2.read_unread, View.ld_unit_zero (S := S2000x64) hz,
    View.ld_unit_zero (S := S2000x1024) hz]

/-- The last point: the accumulator is updated by the last tile, -/
theorem acc_C (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S256x1024 .f32) (h4 : a4.IsWhole) (hc0 : ¬cond0_0 i) (hc1 : cond0_1 i)
    (x0 : Vec F S2000x64 .f32) (x1 : Vec F S2000x1024 .f32) (xs0 : Vec F S256x1024 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S2000x64) hz,
    View.ld_unit_zero (S := S2000x1024) hz, View.ld_unit_zero (S := S256x1024) hz]

/-- and the output block is the closing computation of that final accumulator. -/
theorem out_C (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S256x1024 .f32) (h4 : a4.IsWhole) (hc0 : ¬cond0_0 i) (hc1 : cond0_1 i)
    (x0 : Vec F S2000x64 .f32) (x1 : Vec F S2000x1024 .f32) (xs0 : Vec F S256x1024 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S256x1024) _ hz]
  simp only [View.readAt_eq_ld, h1.read_unread, h2.read_unread, h4.read_unread, View.ld_unit_zero (S := S2000x64) hz,
    View.ld_unit_zero (S := S2000x1024) hz, View.ld_unit_zero (S := S256x1024) hz]

end Cert.Pieces

end
-- ==== Proof.Tile.lean ====
/-
  One tile's contribution to the accumulator, read at the three kinds of row the closing computation uses.
-/
import proofs.«161942_g77077483094351_cont_sun_m_92_21_alg».proof.Proof.Gen.KernelIdeal.Skeleton
import proofs.«161942_g77077483094351_cont_sun_m_92_21_alg».proof.Proof.Spec
import Idealize.ShloMosaic.Lib.Pipeline.Value
import Idealize.ShloMosaic.Lib.ValueLayout

noncomputable section

open Idealize.ShloMosaic Idealize.ShloMosaic.TcCoe Idealize.ShloMosaic.ValueIdx Idealize.SL.Sem

namespace Cert.Tile

open Cert.KernelIdeal Cert.KernelIdeal.Gen

/-- The left operand's index at output position `j` and contraction position `q`: its column is the output's row. -/
theorem lhs_col (j : S256x1024.Idx) (q : dot_S2000x256_S2000x1024_S256x1024_0_0_1_1_n_n.contr.Idx) :
    (dot_S2000x256_S2000x1024_S256x1024_0_0_1_1_n_n.lhsIdx j q 1).val = (j 0).val := by
  unfold DotDims.lhsIdx
  rw [dif_neg (show ¬(1 : Fin S2000x256.rank) ∈ dot_S2000x256_S2000x1024_S256x1024_0_0_1_1_n_n.lhsBatch by decide), dif_pos (show (1 : Fin S2000x256.rank) ∈ dot_S2000x256_S2000x1024_S256x1024_0_0_1_1_n_n.lhsNonContracting by decide)]
  rfl
/-- Its row is the contraction position. -/
theorem lhs_row (j : S256x1024.Idx) (q : dot_S2000x256_S2000x1024_S256x1024_0_0_1_1_n_n.contr.Idx) :
    (dot_S2000x256_S2000x1024_S256x1024_0_0_1_1_n_n.lhsIdx j q 0).val = (q ⟨0, by decide⟩).val :=
  dot_S2000x256_S2000x1024_S256x1024_0_0_1_1_n_n.lhsIdx_val_of_single rfl j q
/-- The right operand's row is the contraction position too. -/
theorem rhs_row (j : S256x1024.Idx) (q : dot_S2000x256_S2000x1024_S256x1024_0_0_1_1_n_n.contr.Idx) :
    (dot_S2000x256_S2000x1024_S256x1024_0_0_1_1_n_n.rhsIdx j q 0).val = (q ⟨0, by decide⟩).val :=
  dot_S2000x256_S2000x1024_S256x1024_0_0_1_1_n_n.rhsIdx_val_of_single rfl j q
/-- Its column is the output's column. -/
theorem rhs_col (j : S256x1024.Idx) (q : dot_S2000x256_S2000x1024_S256x1024_0_0_1_1_n_n.contr.Idx) :
    (dot_S2000x256_S2000x1024_S256x1024_0_0_1_1_n_n.rhsIdx j q 1).val = (j 1).val := by
  unfold DotDims.rhsIdx
  rw [dif_neg (show ¬(1 : Fin S2000x1024.rank) ∈ dot_S2000x256_S2000x1024_S256x1024_0_0_1_1_n_n.rhsBatch by decide), dif_pos (show (1 : Fin S2000x1024.rank) ∈ dot_S2000x256_S2000x1024_S256x1024_0_0_1_1_n_n.rhsNonContracting by decide)]
  rfl

/-- The tile's product at an output position: the contraction runs over the node axis of both operands. -/
theorem prod_apply (A : FVec Ideal S2000x256 .bf16) (B : FVec Ideal S2000x1024 .bf16) (r : Fin 256) (e : Fin 1024) :
    matmul dot_S2000x256_S2000x1024_S256x1024_0_0_1_1_n_n none A B (constant (F := Ideal) S256x1024 .f32 0x00000000#32) (ix2 r e)
      = ∑ n : Fin 2000, A (ix2 n r) * B (ix2 n e) := by
  simp only [matmul]
  rw [Ideal.matmul_constant_zero_apply, ← Equiv.sum_comp (ValueIdx.contrEquiv1 dot_S2000x256_S2000x1024_S256x1024_0_0_1_1_n_n 2000 rfl rfl).symm]
  refine Finset.sum_congr rfl fun k _ => ?_
  have hk := ValueIdx.contrEquiv1_symm_val dot_S2000x256_S2000x1024_S256x1024_0_0_1_1_n_n 2000 rfl rfl k
  have el : dot_S2000x256_S2000x1024_S256x1024_0_0_1_1_n_n.lhsIdx (ix2 r e) ((ValueIdx.contrEquiv1 dot_S2000x256_S2000x1024_S256x1024_0_0_1_1_n_n 2000 rfl rfl).symm k) = ix2 k r := funext fun a => Fin.ext (by
    match a with
    | ⟨0, _⟩ => exact (lhs_row _ _).trans hk
    | ⟨1, _⟩ => exact lhs_col _ _)
  have er : dot_S2000x256_S2000x1024_S256x1024_0_0_1_1_n_n.rhsIdx (ix2 r e) ((ValueIdx.contrEquiv1 dot_S2000x256_S2000x1024_S256x1024_0_0_1_1_n_n 2000 rfl rfl).symm k) = ix2 k e := funext fun a => Fin.ext (by
    match a with
    | ⟨0, _⟩ => exact (rhs_row _ _).trans hk
    | ⟨1, _⟩ => exact rhs_col _ _)
  rw [el, er]

section Concat
variable {α : Type}

/-- Two 64-column pieces side by side, read in the first piece. -/
theorem cat64_left (u v : S2000x64.Idx → α) (n : Fin 2000) (c : Fin 128) (c' : Fin 64) (hc : c'.val = c.val) :
    concatenate S2000x128 1 [⟨S2000x64, u⟩, ⟨S2000x64, v⟩] concatenates_S2000x64_S2000x64_S2000x128_d1 (ix2 n c) = u (ix2 n c') :=
  concatenate_pair_apply_left (1 : Fin S2000x128.rank) u v concatenates_S2000x64_S2000x64_S2000x128_d1 (ix2 n c) rfl (ix2 n c')
    (fun b => match b with
      | ⟨0, _⟩ => rfl
      | ⟨1, _⟩ => hc)

/-- Two 64-column pieces side by side, read in the second piece. -/
theorem cat64_right (u v : S2000x64.Idx → α) (n : Fin 2000) (c : Fin 128) (c' : Fin 64) (hc : c'.val + 64 = c.val) :
    concatenate S2000x128 1 [⟨S2000x64, u⟩, ⟨S2000x64, v⟩] concatenates_S2000x64_S2000x64_S2000x128_d1 (ix2 n c) = v (ix2 n c') :=
  concatenate_pair_apply_right (1 : Fin S2000x128.rank) u v concatenates_S2000x64_S2000x64_S2000x128_d1 (ix2 n c) rfl rfl (ix2 n c')
    (fun b hb => match b, hb with
      | ⟨0, _⟩, _ => rfl
      | ⟨1, _⟩, hb => absurd rfl hb)
    hc

/-- Two 128-column pieces side by side, read in the first piece. -/
theorem cat128_left (u v : S2000x128.Idx → α) (n : Fin 2000) (c : Fin 256) (c' : Fin 128) (hc : c'.val = c.val) :
    concatenate S2000x256 1 [⟨S2000x128, u⟩, ⟨S2000x128, v⟩] concatenates_S2000x128_S2000x128_S2000x256_d1 (ix2 n c) = u (ix2 n c') :=
  concatenate_pair_apply_left (1 : Fin S2000x256.rank) u v concatenates_S2000x128_S2000x128_S2000x256_d1 (ix2 n c) rfl (ix2 n c')
    (fun b => match b with
      | ⟨0, _⟩ => rfl
      | ⟨1, _⟩ => hc)

/-- Two 128-column pieces side by side, read in the second piece. -/
theorem cat128_right (u v : S2000x128.Idx → α) (n : Fin 2000) (c : Fin 256) (c' : Fin 128) (hc : c'.val + 128 = c.val) :
    concatenate S2000x256 1 [⟨S2000x128, u⟩, ⟨S2000x128, v⟩] concatenates_S2000x128_S2000x128_S2000x256_d1 (ix2 n c) = v (ix2 n c') :=
  concatenate_pair_apply_right (1 : Fin S2000x256.rank) u v concatenates_S2000x128_S2000x128_S2000x256_d1 (ix2 n c) rfl rfl (ix2 n c')
    (fun b hb => match b, hb with
      | ⟨0, _⟩, _ => rfl
      | ⟨1, _⟩, hb => absurd rfl hb)
    hc

end Concat

/-- A bit widened to 32 bits and read as a signed integer is the bit read as a natural number. -/
theorem bit_conv (b : BitVec 1) : (((b.setWidth 32).toInt : ℝ) : EReal) = ((b.toNat : ℝ) : EReal) := by
  have h : ((b.setWidth 32).toInt : ℤ) = (b.toNat : ℤ) := by revert b; decide
  rw [h, Int.cast_natCast]

/-- The membership mask: the comparison's bit, widened and converted, is the indicator. -/
def msk (x1 : Vec Ideal S2000x1024 .f32) : FVec Ideal S2000x1024 .bf16 :=
  truncf .bf16 (sitofp .f32 (extui 32 (cmpf .ogt x1 (broadcast S2000x1024 (Scalar.ofBits (F := Ideal) .f32 0x00000000#32))) natLt_1_32)) bitsLt_bf16_f32

theorem msk_apply (x1 : Vec Ideal S2000x1024 .f32) (i : S2000x1024.Idx) : msk x1 i = Cert.Spec.ind (x1 i) := by
  show ((((Ideal.cmp .ogt (x1 i) (Ideal.ofBits .f32 0x00000000#32)).setWidth 32).toInt : ℝ) : EReal) = _
  rw [bit_conv]
  rfl

/-- The column of ones: the iota along the columns equals zero exactly in column 0. -/
def ones : FVec Ideal S2000x64 .bf16 :=
  truncf .bf16 (sitofp .f32 (extui 32 (cmpi .eq (iota .tc S2000x64 32 [1] iota_S2000x64_d1_w32) (broadcast S2000x64 0#32)) natLt_1_32)) bitsLt_bf16_f32

theorem ones_apply (n : Fin 2000) : ones (ix2 n (⟨0, by decide⟩ : Fin 64)) = 1 := by
  show ((((IntOp.cmpi .eq (iota .tc S2000x64 32 [1] iota_S2000x64_d1_w32 (ix2 n (⟨0, by decide⟩ : Fin 64))) 0#32).setWidth 32).toInt : ℝ) : EReal) = 1
  rw [iota_single_apply]
  show ((((IntOp.cmpi .eq (BitVec.ofNat 32 0) 0#32).setWidth 32).toInt : ℝ) : EReal) = 1
  rw [show ((IntOp.cmpi .eq (BitVec.ofNat 32 0) 0#32).setWidth 32).toInt = 1 by decide]
  simp

/-- The left operand of the tile's product: the embeddings, a block of zeros, the embeddings minus themselves, and the
    block whose column 0 is all ones, side by side along the columns. -/
def lhs (x0 : Vec Ideal S2000x64 .f32) : FVec Ideal S2000x256 .bf16 :=
  concatenate S2000x256 1
    [⟨S2000x128, concatenate S2000x128 1
        [⟨S2000x64, truncf .bf16 x0 bitsLt_bf16_f32⟩, ⟨S2000x64, broadcast S2000x64 (Scalar.ofBits (F := Ideal) .bf16 0x0000#16)⟩]
        concatenates_S2000x64_S2000x64_S2000x128_d1⟩,
     ⟨S2000x128, concatenate S2000x128 1
        [⟨S2000x64, truncf .bf16 (subf x0 x0) bitsLt_bf16_f32⟩, ⟨S2000x64, ones⟩]
        concatenates_S2000x64_S2000x64_S2000x128_d1⟩]
    concatenates_S2000x128_S2000x128_S2000x256_d1

/-- Columns 0..63 of the left operand are the embeddings. -/
theorem lhs_feature (x0 : Vec Ideal S2000x64 .f32) (n : Fin 2000) (j : Fin 64) :
    lhs x0 (ix2 n (⟨j.val, by omega⟩ : Fin 256)) = x0 (ix2 n j) := by
  unfold lhs
  rw [cat128_left _ _ n (⟨j.val, by omega⟩ : Fin 256) (⟨j.val, by omega⟩ : Fin 128) rfl,
    cat64_left _ _ n (⟨j.val, by omega⟩ : Fin 128) j rfl]
  rfl

/-- Columns 128..191 of the left operand are the embeddings minus themselves. -/
theorem lhs_residual (x0 : Vec Ideal S2000x64 .f32) (n : Fin 2000) (j : Fin 64) :
    lhs x0 (ix2 n (⟨128 + j.val, by omega⟩ : Fin 256)) = x0 (ix2 n j) - x0 (ix2 n j) := by
  unfold lhs
  rw [cat128_right _ _ n (⟨128 + j.val, by omega⟩ : Fin 256) (⟨j.val, by omega⟩ : Fin 128) (Nat.add_comm _ _),
    cat64_left _ _ n (⟨j.val, by omega⟩ : Fin 128) j rfl]
  rfl

/-- Column 192 of the left operand is all ones. -/
theorem lhs_count (x0 : Vec Ideal S2000x64 .f32) (n : Fin 2000) :
    lhs x0 (ix2 n (⟨192, by decide⟩ : Fin 256)) = 1 := by
  unfold lhs
  rw [cat128_right _ _ n (⟨192, by decide⟩ : Fin 256) (⟨64, by decide⟩ : Fin 128) rfl,
    cat64_right _ _ n (⟨64, by decide⟩ : Fin 128) (⟨0, by decide⟩ : Fin 64) rfl]
  exact ones_apply n

/-- The tile's contribution is the accumulator plus the product of the left operand and the mask. -/
theorem pay2_eq (x0 : Vec Ideal S2000x64 .f32) (x1 : Vec Ideal S2000x1024 .f32) (acc : Vec Ideal S256x1024 .f32) :
    k0_pay2 (F := Ideal) x0 x1 acc
      = addf acc (matmul dot_S2000x256_S2000x1024_S256x1024_0_0_1_1_n_n none (lhs x0) (msk x1) (constant (F := Ideal) S256x1024 .f32 0x00000000#32)) := by
  unfold k0_pay2
  exact shapeCast_self _ _

/-- At an output position: the accumulator plus the sum over the tile's nodes. -/
theorem pay2_apply (x0 : Vec Ideal S2000x64 .f32) (x1 : Vec Ideal S2000x1024 .f32) (acc : Vec Ideal S256x1024 .f32)
    (r : Fin 256) (e : Fin 1024) :
    k0_pay2 (F := Ideal) x0 x1 acc (ix2 r e)
      = acc (ix2 r e) + ∑ n : Fin 2000, lhs x0 (ix2 n r) * Cert.Spec.ind (x1 (ix2 n e)) := by
  rw [pay2_eq, addf_apply, prod_apply]
  refine congrArg (acc (ix2 r e) + ·) (Finset.sum_congr rfl fun n _ => ?_)
  rw [msk_apply]

/-- The reset accumulator is zero everywhere. -/
theorem pay1_apply (i : S256x1024.Idx) : k0_pay1 (F := Ideal) i = 0 := by
  unfold k0_pay1
  rw [shapeCast_self]
  exact Ideal.ofBits_zero_f32

/-- A feature row `j` gains the tile's members' sum of feature `j`. -/
theorem pay2_feature (x0 : Vec Ideal S2000x64 .f32) (x1 : Vec Ideal S2000x1024 .f32) (acc : Vec Ideal S256x1024 .f32)
    (j : Fin 64) (e : Fin 1024) :
    k0_pay2 (F := Ideal) x0 x1 acc (ix2 (⟨j.val, by omega⟩ : Fin 256) e)
      = acc (ix2 (⟨j.val, by omega⟩ : Fin 256) e) + ∑ n : Fin 2000, Cert.Spec.ind (x1 (ix2 n e)) * x0 (ix2 n j) := by
  rw [pay2_apply]
  refine congrArg (acc (ix2 (⟨j.val, by omega⟩ : Fin 256) e) + ·) (Finset.sum_congr rfl fun n _ => ?_)
  rw [lhs_feature, mul_comm]

/-- Row `128 + j` gains the tile's sum of `x - x` over the members, which is zero when the embeddings are real numbers
    (for an infinite `x` the difference would not be zero). -/
theorem pay2_residual (x0 : Vec Ideal S2000x64 .f32) (x1 : Vec Ideal S2000x1024 .f32) (acc : Vec Ideal S256x1024 .f32)
    (j : Fin 64) (e : Fin 1024) (hfin : ∀ n : Fin 2000, ∃ r : ℝ, x0 (ix2 n j) = ((r : ℝ) : EReal)) :
    k0_pay2 (F := Ideal) x0 x1 acc (ix2 (⟨128 + j.val, by omega⟩ : Fin 256) e)
      = acc (ix2 (⟨128 + j.val, by omega⟩ : Fin 256) e) := by
  rw [pay2_apply]
  have hz : ∀ n : Fin 2000, lhs x0 (ix2 n (⟨128 + j.val, by omega⟩ : Fin 256)) * Cert.Spec.ind (x1 (ix2 n e)) = 0 := fun n => by
    obtain ⟨r, hr⟩ := hfin n
    rw [lhs_residual, hr, ← EReal.coe_sub, sub_self, EReal.coe_zero, zero_mul]
  rw [Finset.sum_congr rfl fun n _ => hz n, Finset.sum_const_zero, add_zero]

/-- Row 192 gains the number of the tile's members: its column of the left operand is all ones. -/
theorem pay2_count (x0 : Vec Ideal S2000x64 .f32) (x1 : Vec Ideal S2000x1024 .f32) (acc : Vec Ideal S256x1024 .f32)
    (e : Fin 1024) :
    k0_pay2 (F := Ideal) x0 x1 acc (ix2 (⟨192, by decide⟩ : Fin 256) e)
      = acc (ix2 (⟨192, by decide⟩ : Fin 256) e) + ∑ n : Fin 2000, Cert.Spec.ind (x1 (ix2 n e)) := by
  rw [pay2_apply]
  refine congrArg (acc (ix2 (⟨192, by decide⟩ : Fin 256) e) + ·) (Finset.sum_congr rfl fun n _ => ?_)
  rw [lhs_count, one_mul]

end Cert.Tile

end
-- ==== Proof.Epilogue.lean ====
/-
  The last point's closing computation, read at a feature: from the accumulator to the pooled averages.
-/
import proofs.«161942_g77077483094351_cont_sun_m_92_21_alg».proof.Proof.Gen.KernelIdeal.Skeleton
import proofs.«161942_g77077483094351_cont_sun_m_92_21_alg».proof.Proof.Spec
import Idealize.ShloMosaic.Lib.Pipeline.Value
import Idealize.ShloMosaic.Lib.ValueLayout

noncomputable section

open Idealize.ShloMosaic Idealize.ShloMosaic.TcCoe Idealize.ShloMosaic.ValueIdx Idealize.SL.Sem

namespace Cert.Epilogue

open Cert.KernelIdeal Cert.KernelIdeal.Gen

/-- The accumulator with its two axes exchanged: one row per hyperedge, one column per accumulator row. -/
private def accT (acc : Vec Ideal S256x1024 .f32) : FVec Ideal S1024x256 .f32 :=
  transpose S1024x256 [1, 0] acc transposes_S256x1024_p1_0_S1024x256

/-- The exchanged accumulator at (e, r) is the accumulator at (r, e). -/
private theorem accT_apply (acc : Vec Ideal S256x1024 .f32) (e : Fin 1024) (r : Fin 256) :
    accT acc (ix2 e r) = acc (ix2 r e) :=
  transpose_ix2_apply acc transposes_S256x1024_p1_0_S1024x256 e r

/-- Columns 0..63 of the exchanged accumulator: at (e, j), the accumulator's row j at e. -/
private theorem lo_apply (acc : Vec Ideal S256x1024 .f32) (e : Fin 1024) (j : Fin 64) :
    extractStridedSlice S1024x64 ![0, 0] (accT acc) slices_S1024x256_o0_0_S1024x64 (ix2 e j)
      = acc (ix2 (⟨j.val, by omega⟩ : Fin 256) e) :=
  (slice2_axis1_apply 0 (accT acc) slices_S1024x256_o0_0_S1024x64 e j ⟨j.val, by omega⟩
    (Nat.zero_add _).symm).trans (accT_apply acc e _)

/-- Columns 128..191 of the exchanged accumulator: at (e, j), the accumulator's row (128 + j) at e. -/
private theorem hi_apply (acc : Vec Ideal S256x1024 .f32) (e : Fin 1024) (j : Fin 64) :
    extractStridedSlice S1024x64 ![0, 128] (accT acc) slices_S1024x256_o0_128_S1024x64 (ix2 e j)
      = acc (ix2 (⟨128 + j.val, by omega⟩ : Fin 256) e) :=
  (slice2_axis1_apply 128 (accT acc) slices_S1024x256_o0_128_S1024x64 e j ⟨128 + j.val, by omega⟩
    rfl).trans (accT_apply acc e _)

/-- Column 192 of the exchanged accumulator: at (e, 0), the accumulator's row 192 at e. -/
private theorem cnt_apply (acc : Vec Ideal S256x1024 .f32) (e : Fin 1024) (u : Fin 1) :
    extractStridedSlice S1024x1 ![0, 192] (accT acc) slices_S1024x256_o0_192_S1024x1 (ix2 e u)
      = acc (ix2 (⟨192, by decide⟩ : Fin 256) e) :=
  (slice2_axis1_apply 192 (accT acc) slices_S1024x256_o0_192_S1024x1 e u ⟨192, by decide⟩
    (by have := u.isLt; show 192 = 192 + u.val; omega)).trans (accT_apply acc e _)

/-- That column repeated along 64 columns: at (e, j), still the accumulator's row 192 at e. -/
private theorem cntB_apply (acc : Vec Ideal S256x1024 .f32) (e : Fin 1024) (j : Fin 64) :
    broadcastTo S1024x64
        (extractStridedSlice S1024x1 ![0, 192] (accT acc) slices_S1024x256_o0_192_S1024x1)
        broadcasts_S1024x1_S1024x64 (ix2 e j)
      = acc (ix2 (⟨192, by decide⟩ : Fin 256) e) :=
  (broadcastTo_apply _ broadcasts_S1024x1_S1024x64 (ix2 e j) (ix2 e (0 : Fin 1))
    (fun a => match a with | ⟨0, _⟩ => rfl | ⟨1, _⟩ => rfl)).trans (cnt_apply acc e 0)

/-- The array of quotients the maximum is taken over. -/
private def quot (acc : Vec Ideal S256x1024 .f32) : FVec Ideal S1024x64 .f32 :=
  divf
    (addf (extractStridedSlice S1024x64 ![0, 0] (accT acc) slices_S1024x256_o0_0_S1024x64)
      (extractStridedSlice S1024x64 ![0, 128] (accT acc) slices_S1024x256_o0_128_S1024x64))
    (broadcastTo S1024x64
      (extractStridedSlice S1024x1 ![0, 192] (accT acc) slices_S1024x256_o0_192_S1024x1)
      broadcasts_S1024x1_S1024x64)

/-- At (e, j) the quotient is (row j + row (128 + j)) / row 192 of the accumulator, each read at hyperedge e. -/
private theorem quot_apply (acc : Vec Ideal S256x1024 .f32) (e : Fin 1024) (j : Fin 64) :
    quot acc (ix2 e j)
      = Ideal.div (acc (ix2 (⟨j.val, by omega⟩ : Fin 256) e) + acc (ix2 (⟨128 + j.val, by omega⟩ : Fin 256) e))
          (acc (ix2 (⟨192, by decide⟩ : Fin 256) e)) := by
  unfold quot
  rw [divf_apply, addf_apply, lo_apply, hi_apply, cntB_apply]

/-- The index the reduction over the hyperedge axis inserts: feature j with hyperedge e put in front is (e, j). -/
private theorem lift_eq (e : Fin 1024) (j : Fin 64) :
    reduces_S1024x64_S64.lift (ix1 j) e = ix2 e j := by
  funext a
  match a with
  | ⟨0, _⟩ => exact Fin.ext rfl
  | ⟨1, _⟩ => exact Fin.ext rfl

/-- The payload is the quotient array, reduced by maximum over the hyperedges and given a leading unit axis. -/
private theorem pay3_eq (acc : Vec Ideal S256x1024 .f32) :
    k0_pay3 (F := Ideal) acc
      = shapeCast S1x64
          (multiReduction .maximumf [0] S64 (quot acc) 0xFF800000#32 reduces_S1024x64_S64 (.inl rfl) rfl)
          shapeCasts_S64_S1x64 := rfl

/-- The closing computation at feature `j`: the largest, over the 1024 hyperedges `e`, from minus infinity upwards, of
    (row `j` + row `128 + j`) / row 192 of the accumulator at `e`. -/
theorem pay3_apply (acc : Vec Ideal S256x1024 .f32) (j : Fin 64) :
    k0_pay3 (F := Ideal) acc (ix2 (0 : Fin 1) j)
      = (Finset.univ : Finset (Fin 1024)).fold max (Ideal.ofBits .f32 0xFF800000#32)
          (fun e => Ideal.div (acc (ix2 (⟨j.val, by omega⟩ : Fin 256) e) + acc (ix2 (⟨128 + j.val, by omega⟩ : Fin 256) e))
            (acc (ix2 (⟨192, by decide⟩ : Fin 256) e))) := by
  rw [pay3_eq]
  refine (shapeCast_a_1a_apply _ shapeCasts_S64_S1x64 0 j).trans ?_
  refine (Ideal.multiReduction_maximumf_single (quot acc) _ reduces_S1024x64_S64 (.inl rfl) rfl (ix1 j)).trans ?_
  exact Finset.fold_congr (fun e _ => (congrArg (quot acc) (lift_eq e j)).trans (quot_apply acc e j))

end Cert.Epilogue

end
-- ==== Proof.LibTileSum.lean ====
/-
  Sums over the rows of a matrix cut into consecutive tiles of equal height.

  A running total that starts at zero and adds, tile after tile, the sum over that tile's rows ends at the sum over all
  rows: in a commutative monoid the order and grouping of the summands do not matter. The rows are numbered by
  `Fin N`; the summand is continued by zero past `N` so that the partial totals are sums over initial segments of the
  natural numbers.
-/
import Mathlib.Algebra.BigOperators.Fin
import Mathlib.Algebra.BigOperators.Intervals

namespace Cert.Lib

open Finset

variable {M : Type*} [AddCommMonoid M]

/-- A function on the first `N` naturals, continued by zero. -/
def extendZero {N : ℕ} (z : Fin N → M) : ℕ → M := fun i => if h : i < N then z ⟨i, h⟩ else 0

theorem extendZero_of_lt {N : ℕ} (z : Fin N → M) {i : ℕ} (h : i < N) : extendZero z i = z ⟨i, h⟩ := dif_pos h

/-- The total over all of `Fin N` is the total of the continuation over the first `N` naturals. -/
theorem sum_univ_eq_sum_range_extendZero {N : ℕ} (z : Fin N → M) :
    ∑ p : Fin N, z p = ∑ i ∈ range N, extendZero z i := by
  rw [← Fin.sum_univ_eq_sum_range (extendZero z) N]
  exact Finset.sum_congr rfl fun p _ => (extendZero_of_lt z p.isLt).symm

/-- The sum over the rows of tile `k` (rows `R k, …, R k + R - 1`), as a sum of the continuation. -/
theorem sum_tile_eq_sum_range {N : ℕ} (z : Fin N → M) (R k : ℕ) (hk : R * k + R ≤ N) :
    ∑ r : Fin R, z ⟨R * k + r.val, lt_of_lt_of_le (Nat.add_lt_add_left r.isLt _) hk⟩
      = ∑ r ∈ range R, extendZero z (R * k + r) := by
  rw [← Fin.sum_univ_eq_sum_range (fun r => extendZero z (R * k + r)) R]
  exact Finset.sum_congr rfl fun r _ =>
    (extendZero_of_lt z (lt_of_lt_of_le (Nat.add_lt_add_left r.isLt _) hk)).symm

/-- One step of the running total: the total over the rows of tiles `0, …, k - 1` plus the sum over tile `k` is the
    total over the rows of tiles `0, …, k`. -/
theorem running_total_step {N : ℕ} (z : Fin N → M) (R k : ℕ) (hk : R * k + R ≤ N) (acc : M)
    (hacc : acc = ∑ i ∈ range (R * k), extendZero z i) :
    acc + ∑ r : Fin R, z ⟨R * k + r.val, lt_of_lt_of_le (Nat.add_lt_add_left r.isLt _) hk⟩
      = ∑ i ∈ range (R * (k + 1)), extendZero z i := by
  rw [hacc, sum_tile_eq_sum_range z R k hk, Nat.mul_succ, Finset.sum_range_add]

/-- The running total before the first tile is zero. -/
theorem running_total_zero {N : ℕ} (z : Fin N → M) (R : ℕ) :
    (0 : M) = ∑ i ∈ range (R * 0), extendZero z i := by
  rw [Nat.mul_zero, Finset.sum_range_zero]

/-- After the last of `T` tiles of height `R`, with `R T = N`, the running total is the total over all rows. -/
theorem running_total_last {N : ℕ} (z : Fin N → M) (R T : ℕ) (h : R * T = N) :
    ∑ i ∈ range (R * T), extendZero z i = ∑ p : Fin N, z p := by
  rw [h, sum_univ_eq_sum_range_extendZero]

end Cert.Lib
-- ==== Proof.Accum.lean ====
/-
  The accumulator after each grid point, and the output block after the last.

  The grid walks the 50000 nodes in 25 tiles of 2000. After the tile at point `n` every row of the accumulator that the
  closing computation reads is a sum over the first `2000 (n + 1)` nodes: a feature row holds the members' feature
  sums so far, the row 128 places below it holds zero (it collects `x - x`, which vanishes because the embeddings are
  real numbers), and row 192 holds the members counted so far. After the last tile these are the sums over all nodes,
  and the closing computation turns them into the largest average.
-/
import proofs.«161942_g77077483094351_cont_sun_m_92_21_alg».proof.Proof.Gen.KernelIdeal.Frame
import proofs.«161942_g77077483094351_cont_sun_m_92_21_alg».proof.Proof.Pieces
import proofs.«161942_g77077483094351_cont_sun_m_92_21_alg».proof.Proof.Tile
import proofs.«161942_g77077483094351_cont_sun_m_92_21_alg».proof.Proof.Epilogue
import proofs.«161942_g77077483094351_cont_sun_m_92_21_alg».proof.Proof.Spec
import proofs.«161942_g77077483094351_cont_sun_m_92_21_alg».proof.Proof.LibTileSum
import Idealize.ShloMosaic.Lib.Pipeline.Value

noncomputable section

open Idealize.ShloMosaic Idealize.ShloMosaic.TcCoe Idealize.ShloMosaic.ValueIdx Idealize.SL.Sem

namespace Cert.Accum

open Cert.KernelIdeal Cert.KernelIdeal.Gen Cert.Spec

variable (m : (ℓ : Loc nD τ sig) → Buf (Elt Ideal) ℓ)

/-- The two argument arrays on core `c`. -/
abbrev argX (c : Dev nD) : SX.Idx → EReal := m ((c.tc : Thread nD τ).loc main_arg0)
abbrev argH (c : Dev nD) : SH.Idx → EReal := m ((c.tc : Thread nD τ).loc main_arg1)

theorem hN : cfg0.N = 25 := N_0

/-- Both input windows step through the node axis one tile per point and keep the other axis whole. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- Node `n` of tile `t`. -/
def node (t : Fin cfg0.N) (n : Fin 2000) : Fin 50000 :=
  ⟨2000 * t.val + n.val, by have := t.isLt; have := hN; have := n.isLt; omega⟩

/-- The embeddings' block at point `t` holds the embeddings of tile `t`'s nodes. -/
theorem blkX (c : Dev nD) (t : Fin cfg0.N) (n : Fin 2000) (j : Fin 64) :
    (iblk m c 0 t : Vec Ideal S2000x64 .f32) (ix2 n j) = argX m c (ix2 (node t n) j) := by
  have hi := idx0 t
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 2000 + 1 * n.val = 2000 * t.val + n.val; rw [hi.1]; omega
  | ⟨1, _⟩ => show win0_0.index t 1 * 64 + 1 * j.val = j.val; rw [hi.2]; omega

/-- The incidence weights' block at point `t` holds the weights of tile `t`'s nodes. -/
theorem blkH (c : Dev nD) (t : Fin cfg0.N) (n : Fin 2000) (e : Fin 1024) :
    (iblk m c 1 t : Vec Ideal S2000x1024 .f32) (ix2 n e) = argH m c (ix2 (node t n) e) := by
  have hi := idx1 t
  unfold iblk
  rw [View.read_apply]
  show V m c main_arg1 _ = m ((c.tc : Thread nD τ).loc main_arg1) _
  rw [V_main_arg1]
  congr 1
  funext a
  apply Fin.ext
  match a with
  | ⟨0, _⟩ => show win0_1.index t 0 * 2000 + 1 * n.val = 2000 * t.val + n.val; rw [hi.1]; omega
  | ⟨1, _⟩ => show win0_1.index t 1 * 1024 + 1 * e.val = e.val; rw [hi.2]; omega

/-! ## Point by point -/

/-- The point before `t`. -/
theorem pred_lt (t : Fin cfg0.N) : t.val - 1 < cfg0.N := Nat.lt_of_le_of_lt (Nat.sub_le _ _) t.isLt

/-- At the first point: the reset accumulator updated by the first tile. -/
theorem acc_first (c : Dev nD) (t : Fin cfg0.N) (ht : t.val = 0) :
    (outsAt0 m c t.val t.isLt).2 = k0_pay2 (iblk m c 0 t) (iblk m c 1 t) (k0_pay1 (F := Ideal)) := by
  have h0 : t.val % 25 = 0 := by omega
  have h1 : ¬t.val % 25 = 24 := by omega
  rw [outsAt0_A m c t h0 h1]
  dsimp only
  exact Cert.Pieces.acc_A (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh))
    (iblk m c 0 t) (iblk m c 1 t)

/-- At a later point: what the point before left, updated by this point's tile. -/
theorem acc_next (c : Dev nD) (t : Fin cfg0.N) (ht : t.val ≠ 0) :
    (outsAt0 m c t.val t.isLt).2
      = k0_pay2 (iblk m c 0 t) (iblk m c 1 t) (outsAt0 m c (t.val - 1) (pred_lt t)).2 := by
  have hlt : t.val < 25 := lt_of_lt_of_eq t.isLt hN
  have h0 : ¬t.val % 25 = 0 := by omega
  by_cases h1 : t.val % 25 = 24
  · rw [outsAt0_C m c t h0 h1]
    dsimp only
    exact Cert.Pieces.acc_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1)
      (iblk m c 0 t) (iblk m c 1 t) (outsAt0 m c (t.val - 1) (pred_lt t)).2
  · rw [outsAt0_B m c t h0 h1]
    dsimp only
    exact Cert.Pieces.acc_B (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh))
      (iblk m c 0 t) (iblk m c 1 t) (outsAt0 m c (t.val - 1) (pred_lt t)).2

/-- At the last point the output block is the closing computation of the final accumulator. -/
theorem out_last (c : Dev nD) (t : Fin cfg0.N) (ht : t.val = 24) :
    (outsAt0 m c t.val t.isLt).1 = k0_pay3 (outsAt0 m c t.val t.isLt).2 := by
  have h0 : ¬t.val % 25 = 0 := by omega
  have h1 : t.val % 25 = 24 := by omega
  rw [outsAt0_C m c t h0 h1]
  dsimp only
  rw [Cert.Pieces.acc_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1)
      (iblk m c 0 t) (iblk m c 1 t) (outsAt0 m c (t.val - 1) (pred_lt t)).2]
  exact Cert.Pieces.out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1)
    (iblk m c 0 t) (iblk m c 1 t) (outsAt0 m c (t.val - 1) (pred_lt t)).2

/-! ## The invariant -/

/-- Node `p`'s contribution to hyperedge `e`'s sum of feature `j`, and to its member count. -/
def zFeat (c : Dev nD) (j : Fin 64) (e : Fin 1024) : Fin 50000 → EReal :=
  fun p => ind (argH m c (ix2 p e)) * argX m c (ix2 p j)
def zCount (c : Dev nD) (e : Fin 1024) : Fin 50000 → EReal :=
  fun p => ind (argH m c (ix2 p e))

/-- The accumulator holds the first `k` tiles: feature rows the members' sums over the first `2000 k` nodes, the rows
    128 below them zero, row 192 the members counted. -/
structure Holds (c : Dev nD) (k : ℕ) (a : Vec Ideal S256x1024 .f32) : Prop where
  feat : ∀ (j : Fin 64) (e : Fin 1024), a (ix2 (⟨j.val, by omega⟩ : Fin 256) e)
      = ∑ i ∈ Finset.range (2000 * k), Cert.Lib.extendZero (zFeat m c j e) i
  resid : ∀ (j : Fin 64) (e : Fin 1024), a (ix2 (⟨128 + j.val, by omega⟩ : Fin 256) e) = 0
  count : ∀ e : Fin 1024, a (ix2 (⟨192, by decide⟩ : Fin 256) e)
      = ∑ i ∈ Finset.range (2000 * k), Cert.Lib.extendZero (zCount m c e) i

theorem holds_zero (c : Dev nD) : Holds m c 0 (k0_pay1 (F := Ideal)) where
  feat j e := by rw [Cert.Tile.pay1_apply]; exact Cert.Lib.running_total_zero _ 2000
  resid j e := Cert.Tile.pay1_apply _
  count e := by rw [Cert.Tile.pay1_apply]; exact Cert.Lib.running_total_zero _ 2000

/-- One tile more. -/
theorem holds_step (c : Dev nD) (hfin : ∀ i, ∃ r : ℝ, argX m c i = ((r : ℝ) : EReal)) (t : Fin cfg0.N)
    (a : Vec Ideal S256x1024 .f32) (ha : Holds m c t.val a) :
    Holds m c (t.val + 1) (k0_pay2 (iblk m c 0 t) (iblk m c 1 t) a) := by
  have hk : 2000 * t.val + 2000 ≤ 50000 := by have := t.isLt; have := hN; omega
  refine ⟨fun j e => ?_, fun j e => ?_, fun e => ?_⟩
  · rw [Cert.Tile.pay2_feature]
    have hs : ∑ n : Fin 2000, ind ((iblk m c 1 t : Vec Ideal S2000x1024 .f32) (ix2 n e)) * (iblk m c 0 t : Vec Ideal S2000x64 .f32) (ix2 n j)
        = ∑ r : Fin 2000, zFeat m c j e ⟨2000 * t.val + r.val, lt_of_lt_of_le (Nat.add_lt_add_left r.isLt _) hk⟩ :=
      Finset.sum_congr rfl fun n _ => by rw [blkX, blkH]; rfl
    rw [hs]
    exact Cert.Lib.running_total_step (zFeat m c j e) 2000 t.val hk _ (ha.feat j e)
  · rw [Cert.Tile.pay2_residual _ _ _ _ _ (fun n => by rw [blkX]; exact hfin _)]
    exact ha.resid j e
  · rw [Cert.Tile.pay2_count]
    have hs : ∑ n : Fin 2000, ind ((iblk m c 1 t : Vec Ideal S2000x1024 .f32) (ix2 n e))
        = ∑ r : Fin 2000, zCount m c e ⟨2000 * t.val + r.val, lt_of_lt_of_le (Nat.add_lt_add_left r.isLt _) hk⟩ :=
      Finset.sum_congr rfl fun n _ => by rw [blkH]; rfl
    rw [hs]
    exact Cert.Lib.running_total_step (zCount m c e) 2000 t.val hk _ (ha.count e)

/-- After point `t` the accumulator holds the first `t + 1` tiles. -/
theorem holds_at (c : Dev nD) (hfin : ∀ i, ∃ r : ℝ, argX m c i = ((r : ℝ) : EReal)) :
    ∀ (n : ℕ) (t : Fin cfg0.N), t.val = n → Holds m c (t.val + 1) (outsAt0 m c t.val t.isLt).2
  | 0, t, ht => by
    rw [acc_first m c t ht]
    exact holds_step m c hfin t _ (by rw [ht]; exact holds_zero m c)
  | n + 1, t, ht => by
    have hne : t.val ≠ 0 := by omega
    rw [acc_next m c t hne]
    have ih := holds_at c hfin n ⟨t.val - 1, pred_lt t⟩ (by show t.val - 1 = n; omega)
    have e : t.val - 1 + 1 = t.val := by omega
    refine holds_step m c hfin t _ ?_
    have ih' : Holds m c (t.val - 1 + 1) (outsAt0 m c (t.val - 1) (pred_lt t)).2 := ih
    rw [e] at ih'
    exact ih'

/-! ## After the last point -/

/-- The output block after the last point is the specification's result. -/
theorem out_final (c : Dev nD) (hfin : ∀ i, ∃ r : ℝ, argX m c i = ((r : ℝ) : EReal)) (t : Fin cfg0.N) (ht : t.val = 24)
    (j : Fin 64) :
    ((outsAt0 m c t.val t.isLt).1 : Vec Ideal S1x64 .f32) (ix2 (0 : Fin 1) j) = pooled (argX m c) (argH m c) (ix1 j) := by
  have I : Holds m c 25 (outsAt0 m c t.val t.isLt).2 := by
    have I' := holds_at m c hfin t.val t rfl
    rwa [show t.val + 1 = 25 from by omega] at I'
  rw [out_last m c t ht, Cert.Epilogue.pay3_apply]
  unfold pooled
  refine Finset.fold_congr fun e _ => ?_
  rw [I.feat j e, I.resid j e, I.count e, add_zero, Cert.Lib.running_total_last _ 2000 25 rfl,
    Cert.Lib.running_total_last _ 2000 25 rfl]
  rfl

end Cert.Accum

end
-- ==== Proof.Final.lean ====
/-
  From the output block after the last point to the program's result.

  Only the last grid point writes the output block back, and that one block is the whole [1, 64] result array; the host
  then drops the unit axis. So the program's result at feature `j` is the output block after the last point at (0, j).
-/
import proofs.«161942_g77077483094351_cont_sun_m_92_21_alg».proof.Proof.Gen.KernelIdeal.Frame
import proofs.«161942_g77077483094351_cont_sun_m_92_21_alg».proof.Proof.Accum
import proofs.«161942_g77077483094351_cont_sun_m_92_21_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.ShloMosaic.ValueIdx Idealize.SL.Sem

open Idealize.ShloMosaic.Pipeline (Dat)

namespace Cert.Final

open Cert.KernelIdeal Cert.KernelIdeal.Gen Cert.Spec Cert.Accum

variable (m : (ℓ : Loc nD τ sig) → Buf (Elt Ideal) ℓ) (ρ : Dev nD → PrngReg)

/-- The [1, 64] result array: the specification's result with a unit axis in front. -/
def outBlock (c : Dev nD) : Buf (Elt Ideal) ((c.tc : Thread nD τ).loc main_v0) :=
  fun i => pooled (argX m c) (argH m c) (ix1 (i 1))

/-- The output window never moves, and its block is the whole array. -/
theorem idx2 : ∀ t : Fin cfg0.N, win0_2.index t 0 = 0 ∧ win0_2.index t 1 = 0 :=
  (by decide +kernel : ∀ t : Fin grid0.N, win0_2.index t 0 = 0 ∧ win0_2.index t 1 = 0)
theorem xsize2 : ∀ t : Fin cfg0.N, win0_2.xsize (grid0.coords t) 0 = 1 ∧ win0_2.xsize (grid0.coords t) 1 = 64 :=
  (by decide +kernel : ∀ t : Fin grid0.N, win0_2.xsize (grid0.coords t) 0 = 1 ∧ win0_2.xsize (grid0.coords t) 1 = 64)

/-- After the last point the output block holds the result array. -/
theorem after_last (c : Dev nD) (hfin : ∀ i, ∃ r : ℝ, argX m c i = ((r : ℝ) : EReal)) (t : Fin cfg0.N) (ht : t.val = 24) :
    ((outsAt0 m c t.val t.isLt).1 : Vec Ideal S1x64 .f32) = outBlock m c := funext fun i => by
  obtain ⟨p, q, rfl⟩ : ∃ (p : Fin 1) (q : Fin 64), i = ix2 p q := ⟨i 0, i 1, eq_ix2 i⟩
  obtain rfl : p = 0 := Subsingleton.elim _ _
  exact out_final m c hfin t ht q

/-- The one write-back writes it: the block at index (0, 0) of a [1, 64] array, one block large, is the array. -/
theorem flushed_eq (c : Dev nD) (hfin : ∀ i, ∃ r : ℝ, argX m c i = ((r : ℝ) : EReal)) (t : Fin cfg0.N)
    (hf : (cfg0.win 2).flush t = true) :
    (dats m 0 c).flushed 2 t = ((cfg0.win 2).blk t).view.read (Elt Ideal) (outBlock m c) := by
  have hN' := hN
  have ht : t.val = 24 := by have := (flush0_2 t).mp hf; have := t.isLt; omega
  show (cfg0.win 2).cut (grid0.coords t) ((dats m 0 c).after 2 t) = _
  rw [after0_2, after_last m c hfin t ht]
  have hz' : (fun a => win0_2.index t a * main_v0.ty.shape.size a) = fun _ => 0 := funext fun a => by
    match a with
    | ⟨0, _⟩ => show win0_2.index t 0 * _ = 0; rw [(idx2 t).1, Nat.zero_mul]
    | ⟨1, _⟩ => show win0_2.index t 1 * _ = 0; rw [(idx2 t).2, Nat.zero_mul]
  exact (Memref.read_access_unit_zero (Elt Ideal) main_v0 hz' (fun a => by rw [congrFun hz' a]; simp) (outBlock m c)).symm

/-- Every index of the result array lies in the output window's block, whatever the point. -/
theorem mem_blk (c : Dev nD) (t : Fin cfg0.N) (i : ((cfg0.win 2).arr.view.loc (c.tc : Thread nD τ)).2.ty.Idx) :
    i ∈ ((cfg0.win 2).blk t).view.set := by
  show i ∈ ((View.whole main_v0).slice (win0_2.rect t)).set
  rw [View.set_slice_whole, Rect.mem_set_unit]
  intro a
  have h0 : (i 0 : Nat) < 1 := (i 0).isLt
  have h1 : (i 1 : Nat) < 64 := (i 1).isLt
  match a with
  | ⟨0, _⟩ => show win0_2.index t 0 * win0_2.size 0 ≤ (i 0 : Nat) ∧ (i 0 : Nat) < win0_2.index t 0 * win0_2.size 0 + win0_2.xsize (grid0.coords t) 0
              rw [(idx2 t).1, (xsize2 t).1, Nat.zero_mul]; omega
  | ⟨1, _⟩ => show win0_2.index t 1 * win0_2.size 1 ≤ (i 1 : Nat) ∧ (i 1 : Nat) < win0_2.index t 1 * win0_2.size 1 + win0_2.xsize (grid0.coords t) 1
              rw [(idx2 t).2, (xsize2 t).2, Nat.zero_mul]; omega

theorem h24 : 24 < cfg0.N := by rw [hN]; decide

/-- So the result array ends holding it. -/
theorem final_v0 (c : Dev nD) (hfin : ∀ i, ∃ r : ℝ, argX m c i = ((r : ℝ) : EReal)) :
    (dats m 0 c).arrAt 2 cfg0.N = outBlock m c :=
  (dats m 0 c).arrAt_eq_of_cover 2 (outBlock m c) (flushed_eq m c hfin) fun i =>
    ⟨⟨24, h24⟩, (flush0_2 ⟨24, h24⟩).mpr rfl, mem_blk c ⟨24, h24⟩ i⟩

/-! ## The host's last line, and the run -/

/-- The program's result buffer is no array of the pipeline. -/
theorem v1_rest : main_v1 ∈ Pipeline.restRefs sig cfg0.spec :=
  Pipeline.mem_restRefs_of main_v1 rfl (by decide)

/-- The host's reshape of the result array [1, 64] to [64] is the specification's result. -/
theorem tail_v1 (c : Dev nD) (hfin : ∀ i, ∃ r : ℝ, argX m c i = ((r : ℝ) : EReal)) :
    Pipeline.afterTail₀ cfgs (dats m) 0 (V0 m) [hostOps1] c main_v1 = pooled (argX m c) (argH m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = outBlock m c :=
    (Pipeline.withArrays_arr spec0 launch0.win.arr_inj c _ _ 2).trans (final_v0 m c hfin)
  rw [hw]
  funext i
  obtain ⟨q, rfl⟩ : ∃ q : Fin 64, i = ix1 q := ⟨i 0, eq_ix1 i⟩
  exact shapeCast_1a_a_apply (outBlock m c) shapeCasts_S1x64_S64 q

/-- The program's run: every weakly fair execution terminates with the result buffer at the specification's result of
    the two argument arrays, which end unchanged. -/
theorem run (hfin : ∀ (c : Dev nD) (i : SX.Idx), ∃ r : ℝ, argX m c i = ((r : ℝ) : EReal)) :
    θ_run defs (onTc (τ := τ) (main (F := Ideal))) ⟨m, fun _ => 0, ρ⟩ fun r => ∀ c : Dev nD,
      r.2.mem ((c.tc : Thread nD τ).loc main_v1) = pooled (argX m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 v1_rest).trans (tail_v1 m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Final

end
-- ==== Proof.lean ====
/-
  Per-hyperedge masked averages of node embeddings, pooled by a maximum.

  The arguments are the node embeddings `X` (50000 nodes, 64 features) and the incidence weights `H` (50000 nodes, 1024
  hyperedges); node `n` is a member of hyperedge `e` when `H n e > 0`. Both programs average each feature over the
  members of each hyperedge — the members' sum divided by their number — and return, feature by feature, the largest of
  the 1024 averages (Proof/Spec.lean states this once, as `pooled`).

  The reference forms the two sums over all 50000 nodes at once: a product of the transposed 0/1 mask with `X`, and a
  column sum of the mask (Proof/RefValue.lean). The kernel walks the nodes in 25 tiles of 2000 and carries a [256, 1024]
  accumulator across the grid. At each tile it multiplies, contracting the node axis, a [2000, 256] operand — columns
  0..63 the tile's embeddings, 64..127 zero, 128..191 the embeddings minus themselves, 192 all ones — with the tile's
  mask, and adds the product to the accumulator (Proof/Tile.lean); after the last tile it adds rows `j` and `128 + j`,
  divides by row 192 and takes the maximum over the hyperedges (Proof/Epilogue.lean).

  The two agree over the extended reals for these reasons. A change of float format is the identity, so columns 0..63 are
  the embeddings themselves. The precondition makes every embedding a real number (Proof/Finite.lean), and for a real `x`
  the difference `x - x` is zero — it would not be for an infinite `x` —, so rows 128..191 of the accumulator stay zero
  and adding them changes nothing. Column 192 is one, so row 192 counts the members. Addition of extended reals is
  commutative and associative, so the running total over 25 tiles is the sum over all 50000 nodes (Proof/LibTileSum.lean,
  Proof/Accum.lean: an induction over the grid points on what the accumulator holds). The kernel's mask converts the
  comparison's bit through a 32-bit integer read signed, the reference's reads the bit unsigned: both give zero or one.
  The quotient and the maximum, from minus infinity, are the same functions on both sides, applied to equal arguments; at
  a hyperedge without members both divide the same zero sum by the same zero count. Only the last grid point writes the
  output block back, that block is the whole [1, 64] result array, and the host then drops the unit axis
  (Proof/Final.lean).

  The three frames are the generated frame runs; the one rewrite of the ideal pass, a narrowing to bf16 widened back,
  is the identity over the extended reals (`preserves`).
-/
import proofs.«161942_g77077483094351_cont_sun_m_92_21_alg».proof.Defs
import proofs.«161942_g77077483094351_cont_sun_m_92_21_alg».proof.Proof.Gen.Kernel
import proofs.«161942_g77077483094351_cont_sun_m_92_21_alg».proof.Proof.Gen.Kernel.Skeleton
import proofs.«161942_g77077483094351_cont_sun_m_92_21_alg».proof.Proof.Gen.Kernel.Launch
import proofs.«161942_g77077483094351_cont_sun_m_92_21_alg».proof.Proof.Gen.Kernel.Points
import proofs.«161942_g77077483094351_cont_sun_m_92_21_alg».proof.Proof.Gen.Kernel.Frame
import proofs.«161942_g77077483094351_cont_sun_m_92_21_alg».proof.Proof.Gen.KernelIdeal
import proofs.«161942_g77077483094351_cont_sun_m_92_21_alg».proof.Proof.Gen.KernelIdeal.Skeleton
import proofs.«161942_g77077483094351_cont_sun_m_92_21_alg».proof.Proof.Gen.KernelIdeal.Launch
import proofs.«161942_g77077483094351_cont_sun_m_92_21_alg».proof.Proof.Gen.KernelIdeal.Points
import proofs.«161942_g77077483094351_cont_sun_m_92_21_alg».proof.Proof.Gen.KernelIdeal.Frame
import proofs.«161942_g77077483094351_cont_sun_m_92_21_alg».proof.Proof.Gen.ReferenceIdeal
import proofs.«161942_g77077483094351_cont_sun_m_92_21_alg».proof.Proof.Gen.ReferenceIdeal.Run
import proofs.«161942_g77077483094351_cont_sun_m_92_21_alg».proof.Proof.Gen.ReferenceIdeal.Read
import proofs.«161942_g77077483094351_cont_sun_m_92_21_alg».proof.Proof.Gen.Pre_finite_inputs
import proofs.«161942_g77077483094351_cont_sun_m_92_21_alg».proof.Proof.Spec
import proofs.«161942_g77077483094351_cont_sun_m_92_21_alg».proof.Proof.RefValue
import proofs.«161942_g77077483094351_cont_sun_m_92_21_alg».proof.Proof.Finite
import proofs.«161942_g77077483094351_cont_sun_m_92_21_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Narrowing a [2000, 64] block to bf16 and widening it back is the identity over the extended reals. -/
theorem preserves : Cert.preserves_Kernel_KernelIdeal :=
  IdealRules.truncf_extf.statement Cert.KernelIdeal.S2000x64 .f32 .bf16

/-- Both runs end with the result at `pooled` of the argument arrays: the kernel's by the accumulator's invariant
    (which uses that the embeddings are real numbers), the reference's stage by stage; the arguments agree. -/
theorem algebraic : Cert.algebraic_KernelIdeal_ReferenceIdeal := by
  intro m ρ m' ρ' hpre hagree
  refine ⟨fun c => Cert.Spec.pooled (Cert.Accum.argX m c) (Cert.Accum.argH m c),
    Cert.Final.run m ρ (fun c i => Cert.Finite.x_real m hpre c i), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
